-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x300 : S_.BroadcastsInDim S2048x300 (![] : Fin 0 → Fin S2048x300.rank)
  reducesTo_S2048x300_S_d0_1 : S2048x300.ReducesTo [0, 1] S_
  bcast_S_S300x64 : S_.BroadcastsInDim S300x64 (![] : Fin 0 → Fin S300x64.rank)
  reducesTo_S300x64_S_d0_1 : S300x64.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x64 .f32) (main_arg5 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x64 .f32 := Host.absf main_arg4
  let main_cst_6 : FVec F S_ .f32 := constant S_ .f32 0x7F800000#32
  let main_v20 : FVec F S300x64 .f32 := broadcastInDim S300x64 ![] bcast_S_S300x64 main_cst_6
  let main_v21 : IVec S300x64 1 := cmpf .olt main_v19 main_v20
  let main_c_7 : IVec S_ 1 := constantI S_ 1 1#1
  let main_v22 : IVec S_ 1 := (fun x v => Host.reduce IntOp.andi x v reducesTo_S300x64_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S2048x64 .f32) (main_arg1 : FVec F S2048x300 .f32) (main_arg2 : FVec F S300x64 .f32) (main_arg3 : FVec F S300 .f32) (main_arg4 : FVec F S300x64 .f32) (main_arg5 : FVec F S300 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x300 .f32 := Host.absf main_arg1
  let main_cst_0 : FVec F S_ .f32 := constant S_ .f32 0x7F800000#32
  let main_v5 : FVec F S2048x300 .f32 := broadcastInDim S2048x300 ![] bcast_S_S2048x300 main_cst_0
  let main_v6 : IVec S2048x300 1 := cmpf .olt main_v4 main_v5
  let main_c_1 : IVec S_ 1 := constantI S_ 1 1#1
  let main_v7 : IVec S_ 1 := (fun x v => Host.reduce IntOp.andi x v reducesTo_S2048x300_S_d0_1 h_S_) main_v6 main_c_1
  let main_v8 : IVec S_ 1 := andi main_v3 main_v7
  let main_v9 : FVec F S300x64 .f32 := Host.absf main_arg2
  let main_cst_2 : FVec F S_ .f32 := constant S_ .f32 0x7F800000#32
  let main_v10 : FVec F S300x64 .f32 := broadcastInDim S300x64 ![] bcast_S_S300x64 main_cst_2
  let main_v11 : IVec S300x64 1 := cmpf .olt main_v9 main_v10
  let main_c_3 : IVec S_ 1 := constantI S_ 1 1#1
  let main_v12 : IVec S_ 1 := (fun x v => Host.reduce IntOp.andi x v reducesTo_S300x64_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_v13 main_v16
-- ==== Kernel.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S64x300 : Shape := ⟨2, ![64, 300]⟩
abbrev S64x600 : Shape := ⟨2, ![64, 600]⟩
abbrev S600 : Shape := ⟨1, ![600]⟩
abbrev S2048x300x300 : Shape := ⟨3, ![2048, 300, 300]⟩
abbrev S32x64 : Shape := ⟨2, ![32, 64]⟩
abbrev S32x300 : Shape := ⟨2, ![32, 300]⟩
abbrev S32x300x300 : Shape := ⟨3, ![32, 300, 300]⟩
abbrev S32x600 : Shape := ⟨2, ![32, 600]⟩
abbrev S1x600 : Shape := ⟨2, ![1, 600]⟩
abbrev S8x300 : Shape := ⟨2, ![8, 300]⟩
abbrev S32x8 : Shape := ⟨2, ![32, 8]⟩
abbrev S32x8x1 : Shape := ⟨3, ![32, 8, 1]⟩
abbrev S1x8x300 : Shape := ⟨3, ![1, 8, 300]⟩
abbrev S32x8x300 : Shape := ⟨3, ![32, 8, 300]⟩
abbrev S4x300 : Shape := ⟨2, ![4, 300]⟩
abbrev S32x4 : Shape := ⟨2, ![32, 4]⟩
abbrev S32x4x1 : Shape := ⟨3, ![32, 4, 1]⟩
abbrev S1x4x300 : Shape := ⟨3, ![1, 4, 300]⟩
abbrev S32x4x300 : Shape := ⟨3, ![32, 4, 300]⟩

abbrev nBuf : Space → Nat
  | .hbm => 12
  | .vmem => 10
  | .smem => 0
  | _ => 0

abbrev bufTy : (tb : Table) → Fin (tcTables nBuf tb) → BufTy
  | .hbm, ⟨0, _⟩ => ⟨S2048x64, .f32⟩
  | .hbm, ⟨1, _⟩ => ⟨S2048x300, .f32⟩
  | .hbm, ⟨2, _⟩ => ⟨S300x64, .f32⟩
  | .hbm, ⟨3, _⟩ => ⟨S300, .f32⟩
  | .hbm, ⟨4, _⟩ => ⟨S300x64, .f32⟩
  | .hbm, ⟨5, _⟩ => ⟨S300, .f32⟩
  | .hbm, ⟨6, _⟩ => ⟨S64x300, .f32⟩
  | .hbm, ⟨7, _⟩ => ⟨S64x300, .f32⟩
  | .hbm, ⟨8, _⟩ => ⟨S64x600, .f32⟩
  | .hbm, ⟨9, _⟩ => ⟨S600, .f32⟩
  | .hbm, ⟨10, _⟩ => ⟨S2048x300x300, .f32⟩
  | .hbm, ⟨11, _⟩ => ⟨S2048x300, .f32⟩
  | .local _ .vmem, ⟨0, _⟩ => ⟨S32x64, .f32⟩
  | .local _ .vmem, ⟨1, _⟩ => ⟨S32x64, .f32⟩
  | .local _ .vmem, ⟨2, _⟩ => ⟨S32x300, .f32⟩
  | .local _ .vmem, ⟨3, _⟩ => ⟨S32x300, .f32⟩
  | .local _ .vmem, ⟨4, _⟩ => ⟨S64x600, .f32⟩
  | .local _ .vmem, ⟨5, _⟩ => ⟨S600, .f32⟩
  | .local _ .vmem, ⟨6, _⟩ => ⟨S32x300x300, .f32⟩
  | .local _ .vmem, ⟨7, _⟩ => ⟨S32x300x300, .f32⟩
  | .local _ .vmem, ⟨8, _⟩ => ⟨S32x300, .f32⟩
  | .local _ .vmem, ⟨9, _⟩ => ⟨S32x300, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x300x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S300x64_S64x300_1_0 : S300x64.Transposes [1, 0] S64x300
  concatenates_S64x300_S64x300_S64x600_d1 : Shape.Concatenates [S64x300, S64x300] S64x600 1
  concatenates_S300_S300_S600_d0 : Shape.Concatenates [S300, S300] S600 0
  inb_S32x64_S32x64_0_0 : ∀ a, (![0, 0] : Fin 2 → Nat) a + S32x64.size a ≤ S32x64.size a
  h_S32x64 : 0 < S32x64.numel
  inb_S64x600_S64x600_0_0 : ∀ a, (![0, 0] : Fin 2 → Nat) a + S64x600.size a ≤ S64x600.size a
  h_S64x600 : 0 < S64x600.numel
  shapeCasts_S64x600_S64x600 : S64x600.ShapeCasts S64x600
  inb_S600_S600_0 : ∀ a, (![0] : Fin 1 → Nat) a + S600.size a ≤ S600.size a
  h_S600 : 0 < S600.numel
  shapeCasts_S600_S600 : S600.ShapeCasts S600
  shapeCasts_S600_S1x600 : S600.ShapeCasts S1x600
  broadcasts_S1x600_S32x600 : S1x600.Broadcasts S32x600
  slices_S32x600_o0_0_S32x300 : S32x600.Slices ![0, 0] S32x300
  slices_S32x600_o0_300_S32x300 : S32x600.Slices ![0, 300] S32x300
  inb_S32x300_S32x300_0_0 : ∀ a, (![0, 0] : Fin 2 → Nat) a + S32x300.size a ≤ S32x300.size a
  h_S32x300 : 0 < S32x300.numel
  iota_S8x300_d0_w32 : S8x300.Iotas .tc 32 [0]
  iota_S8x300_d1_w32 : S8x300.Iotas .tc 32 [1]
  natLt_1_32 : 1 < 32
  slices_S32x300_o0_0_S32x8 : S32x300.Slices ![0, 0] S32x8
  shapeCasts_S32x8_S32x8x1 : S32x8.ShapeCasts S32x8x1
  shapeCasts_S8x300_S1x8x300 : S8x300.ShapeCasts S1x8x300
  broadcasts_S32x8x1_S32x8x300 : S32x8x1.Broadcasts S32x8x300
  broadcasts_S1x8x300_S32x8x300 : S1x8x300.Broadcasts S32x8x300
  inb_S32x300x300_S32x8x300_0_0_0 : ∀ a, (![0, 0, 0] : Fin 3 → Nat) a + S32x8x300.size a ≤ S32x300x300.size a
  h_S32x8x300 : 0 < S32x8x300.numel
  slices_S32x300_o0_8_S32x8 : S32x300.Slices ![0, 8] S32x8
  inb_S32x300x300_S32x8x300_0_8_0 : ∀ a, (![0, 8, 0] : Fin 3 → Nat) a + S32x8x300.size a ≤ S32x300x300.size a
  slices_S32x300_o0_16_S32x8 : S32x300.Slices ![0, 16] S32x8
  inb_S32x300x300_S32x8x300_0_16_0 : ∀ a, (![0, 16, 0] : Fin 3 → Nat) a + S32x8x300.size a ≤ S32x300x300.size a
  slices_S32x300_o0_24_S32x8 : S32x300.Slices ![0, 24] S32x8
  inb_S32x300x300_S32x8x300_0_24_0 : ∀ a, (![0, 24, 0] : Fin 3 → Nat) a + S32x8x300.size a ≤ S32x300x300.size a
  slices_S32x300_o0_32_S32x8 : S32x300.Slices ![0, 32] S32x8
  inb_S32x300x300_S32x8x300_0_32_0 : ∀ a, (![0, 32, 0] : Fin 3 → Nat) a + S32x8x300.size a ≤ S32x300x300.size a
  slices_S32x300_o0_40_S32x8 : S32x300.Slices ![0, 40] S32x8
  inb_S32x300x300_S32x8x300_0_40_0 : ∀ a, (![0, 40, 0] : Fin 3 → Nat) a + S32x8x300.size a ≤ S32x300x300.size a
  slices_S32x300_o0_48_S32x8 : S32x300.Slices ![0, 48] S32x8
  inb_S32x300x300_S32x8x300_0_48_0 : ∀ a, (![0, 48, 0] : Fin 3 → Nat) a + S32x8x300.size a ≤ S32x300x300.size a
  slices_S32x300_o0_56_S32x8 : S32x300.Slices ![0, 56] S32x8
  inb_S32x300x300_S32x8x300_0_56_0 : ∀ a, (![0, 56, 0] : Fin 3 → Nat) a + S32x8x300.size a ≤ S32x300x300.size a
  slices_S32x300_o0_64_S32x8 : S32x300.Slices ![0, 64] S32x8
  inb_S32x300x300_S32x8x300_0_64_0 : ∀ a, (![0, 64, 0] : Fin 3 → Nat) a + S32x8x300.size a ≤ S32x300x300.size a
  slices_S32x300_o0_72_S32x8 : S32x300.Slices ![0, 72] S32x8
  inb_S32x300x300_S32x8x300_0_72_0 : ∀ a, (![0, 72, 0] : Fin 3 → Nat) a + S32x8x300.size a ≤ S32x300x300.size a
  slices_S32x300_o0_80_S32x8 : S32x300.Slices ![0, 80] S32x8
  inb_S32x300x300_S32x8x300_0_80_0 : ∀ a, (![0, 80, 0] : Fin 3 → Nat) a + S32x8x300.size a ≤ S32x300x300.size a
  slices_S32x300_o0_88_S32x8 : S32x300.Slices ![0, 88] S32x8
  inb_S32x300x300_S32x8x300_0_88_0 : ∀ a, (![0, 88, 0] : Fin 3 → Nat) a + S32x8x300.size a ≤ S32x300x300.size a
  slices_S32x300_o0_96_S32x8 : S32x300.Slices ![0, 96] S32x8
  inb_S32x300x300_S32x8x300_0_96_0 : ∀ a, (![0, 96, 0] : Fin 3 → Nat) a + S32x8x300.size a ≤ S32x300x300.size a
  slices_S32x300_o0_104_S32x8 : S32x300.Slices ![0, 104] S32x8
  inb_S32x300x300_S32x8x300_0_104_0 : ∀ a, (![0, 104, 0] : Fin 3 → Nat) a + S32x8x300.size a ≤ S32x300x300.size a
  slices_S32x300_o0_112_S32x8 : S32x300.Slices ![0, 112] S32x8
  inb_S32x300x300_S32x8x300_0_112_0 : ∀ a, (![0, 112, 0] : Fin 3 → Nat) a + S32x8x300.size a ≤ S32x300x300.size a
  slices_S32x300_o0_120_S32x8 : S32x300.Slices ![0, 120] S32x8
  inb_S32x300x300_S32x8x300_0_120_0 : ∀ a, (![0, 120, 0] : Fin 3 → Nat) a + S32x8x300.size a ≤ S32x300x300.size a
  slices_S32x300_o0_128_S32x8 : S32x300.Slices ![0, 128] S32x8
  inb_S32x300x300_S32x8x300_0_128_0 : ∀ a, (![0, 128, 0] : Fin 3 → Nat) a + S32x8x300.size a ≤ S32x300x300.size a
  slices_S32x300_o0_136_S32x8 : S32x300.Slices ![0, 136] S32x8
  inb_S32x300x300_S32x8x300_0_136_0 : ∀ a, (![0, 136, 0] : Fin 3 → Nat) a + S32x8x300.size a ≤ S32x300x300.size a
  slices_S32x300_o0_144_S32x8 : S32x300.Slices ![0, 144] S32x8
  inb_S32x300x300_S32x8x300_0_144_0 : ∀ a, (![0, 144, 0] : Fin 3 → Nat) a + S32x8x300.size a ≤ S32x300x300.size a
  slices_S32x300_o0_152_S32x8 : S32x300.Slices ![0, 152] S32x8
  inb_S32x300x300_S32x8x300_0_152_0 : ∀ a, (![0, 152, 0] : Fin 3 → Nat) a + S32x8x300.size a ≤ S32x300x300.size a
  slices_S32x300_o0_160_S32x8 : S32x300.Slices ![0, 160] S32x8
  inb_S32x300x300_S32x8x300_0_160_0 : ∀ a, (![0, 160, 0] : Fin 3 → Nat) a + S32x8x300.size a ≤ S32x300x300.size a
  slices_S32x300_o0_168_S32x8 : S32x300.Slices ![0, 168] S32x8
  inb_S32x300x300_S32x8x300_0_168_0 : ∀ a, (![0, 168, 0] : Fin 3 → Nat) a + S32x8x300.size a ≤ S32x300x300.size a
  slices_S32x300_o0_176_S32x8 : S32x300.Slices ![0, 176] S32x8
  inb_S32x300x300_S32x8x300_0_176_0 : ∀ a, (![0, 176, 0] : Fin 3 → Nat) a + S32x8x300.size a ≤ S32x300x300.size a
  slices_S32x300_o0_184_S32x8 : S32x300.Slices ![0, 184] S32x8
  inb_S32x300x300_S32x8x300_0_184_0 : ∀ a, (![0, 184, 0] : Fin 3 → Nat) a + S32x8x300.size a ≤ S32x300x300.size a
  slices_S32x300_o0_192_S32x8 : S32x300.Slices ![0, 192] S32x8
  inb_S32x300x300_S32x8x300_0_192_0 : ∀ a, (![0, 192, 0] : Fin 3 → Nat) a + S32x8x300.size a ≤ S32x300x300.size a
  slices_S32x300_o0_200_S32x8 : S32x300.Slices ![0, 200] S32x8
  inb_S32x300x300_S32x8x300_0_200_0 : ∀ a, (![0, 200, 0] : Fin 3 → Nat) a + S32x8x300.size a ≤ S32x300x300.size a
  slices_S32x300_o0_208_S32x8 : S32x300.Slices ![0, 208] S32x8
  inb_S32x300x300_S32x8x300_0_208_0 : ∀ a, (![0, 208, 0] : Fin 3 → Nat) a + S32x8x300.size a ≤ S32x300x300.size a
  slices_S32x300_o0_216_S32x8 : S32x300.Slices ![0, 216] S32x8
  inb_S32x300x300_S32x8x300_0_216_0 : ∀ a, (![0, 216, 0] : Fin 3 → Nat) a + S32x8x300.size a ≤ S32x300x300.size a
  slices_S32x300_o0_224_S32x8 : S32x300.Slices ![0, 224] S32x8
  inb_S32x300x300_S32x8x300_0_224_0 : ∀ a, (![0, 224, 0] : Fin 3 → Nat) a + S32x8x300.size a ≤ S32x300x300.size a
  slices_S32x300_o0_232_S32x8 : S32x300.Slices ![0, 232] S32x8
  inb_S32x300x300_S32x8x300_0_232_0 : ∀ a, (![0, 232, 0] : Fin 3 → Nat) a + S32x8x300.size a ≤ S32x300x300.size a
  slices_S32x300_o0_240_S32x8 : S32x300.Slices ![0, 240] S32x8
  inb_S32x300x300_S32x8x300_0_240_0 : ∀ a, (![0, 240, 0] : Fin 3 → Nat) a + S32x8x300.size a ≤ S32x300x300.size a
  slices_S32x300_o0_248_S32x8 : S32x300.Slices ![0, 248] S32x8
  inb_S32x300x300_S32x8x300_0_248_0 : ∀ a, (![0, 248, 0] : Fin 3 → Nat) a + S32x8x300.size a ≤ S32x300x300.size a
  slices_S32x300_o0_256_S32x8 : S32x300.Slices ![0, 256] S32x8
  inb_S32x300x300_S32x8x300_0_256_0 : ∀ a, (![0, 256, 0] : Fin 3 → Nat) a + S32x8x300.size a ≤ S32x300x300.size a
  slices_S32x300_o0_264_S32x8 : S32x300.Slices ![0, 264] S32x8
  inb_S32x300x300_S32x8x300_0_264_0 : ∀ a, (![0, 264, 0] : Fin 3 → Nat) a + S32x8x300.size a ≤ S32x300x300.size a
  slices_S32x300_o0_272_S32x8 : S32x300.Slices ![0, 272] S32x8
  inb_S32x300x300_S32x8x300_0_272_0 : ∀ a, (![0, 272, 0] : Fin 3 → Nat) a + S32x8x300.size a ≤ S32x300x300.size a
  slices_S32x300_o0_280_S32x8 : S32x300.Slices ![0, 280] S32x8
  inb_S32x300x300_S32x8x300_0_280_0 : ∀ a, (![0, 280, 0] : Fin 3 → Nat) a + S32x8x300.size a ≤ S32x300x300.size a
  slices_S32x300_o0_288_S32x8 : S32x300.Slices ![0, 288] S32x8
  inb_S32x300x300_S32x8x300_0_288_0 : ∀ a, (![0, 288, 0] : Fin 3 → Nat) a + S32x8x300.size a ≤ S32x300x300.size a
  iota_S4x300_d0_w32 : S4x300.Iotas .tc 32 [0]
  iota_S4x300_d1_w32 : S4x300.Iotas .tc 32 [1]
  slices_S32x300_o0_296_S32x4 : S32x300.Slices ![0, 296] S32x4
  shapeCasts_S32x4_S32x4x1 : S32x4.ShapeCasts S32x4x1
  shapeCasts_S4x300_S1x4x300 : S4x300.ShapeCasts S1x4x300
  broadcasts_S32x4x1_S32x4x300 : S32x4x1.Broadcasts S32x4x300
  broadcasts_S1x4x300_S32x4x300 : S1x4x300.Broadcasts S32x4x300
  inb_S32x300x300_S32x4x300_0_296_0 : ∀ a, (![0, 296, 0] : Fin 3 → Nat) a + S32x4x300.size a ≤ S32x300x300.size a
  h_S32x4x300 : 0 < S32x4x300.numel
  dot_S32x64_S64x600_S32x600_1_0_0_1_n_n_wf : DotDims.WF S32x64 S64x600 S32x600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S2048x64.size a
  hwx0_0 : ∀ i : grid0.Coords, EltTy.bits .f32 = 32 ∨ (Rect.block (s := S2048x64) S32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x300.size a ≤ S2048x300.size a
  hwx0_1 : ∀ i : grid0.Coords, EltTy.bits .f32 = 32 ∨ (Rect.block (s := S2048x300) S32x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x600.size a ≤ S64x600.size a
  hwx0_2 : ∀ i : grid0.Coords, EltTy.bits .f32 = 32 ∨ (Rect.block (s := S64x600) S64x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600.size a ≤ S600.size a
  hwx0_3 : ∀ i : grid0.Coords, EltTy.bits .f32 = 32 ∨ (Rect.block (s := S600) S600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x300x300.size a ≤ S2048x300x300.size a
  hwx0_4 : ∀ i : grid0.Coords, EltTy.bits .f32 = 32 ∨ (Rect.block (s := S2048x300x300) S32x300x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x300.size a ≤ S2048x300.size a
  hwx0_5 : ∀ i : grid0.Coords, EltTy.bits .f32 = 32 ∨ (Rect.block (s := S2048x300) S32x300.size (cc0_transform_5 i) (hinb0_5 i)).WholeWords (EltTy.packing .f32)

variable [Facts₀]

def dot_S32x64_S64x600_S32x600_1_0_0_1_n_n : DotDims S32x64 S64x600 S32x600 where
  lhsContracting := [1]
  rhsContracting := [0]
  lhsNonContracting := [0]
  rhsNonContracting := [1]
  lhsBatch := []
  rhsBatch := []
  wf := dot_S32x64_S64x600_S32x600_1_0_0_1_n_n_wf

abbrev win0_0 : Pipeline.Window sig grid0 :=
  Pipeline.Window.ofSpec (Memref.whole main_arg0) S32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S32x300x300.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S32x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S64x300 : Shape := ⟨2, ![64, 300]⟩
abbrev S1x300 : Shape := ⟨2, ![1, 300]⟩
abbrev S300x300 : Shape := ⟨2, ![300, 300]⟩
abbrev S_ : Shape := ⟨0, ![]⟩
abbrev S2048x300x1 : Shape := ⟨3, ![2048, 300, 1]⟩
abbrev S1x300x300 : Shape := ⟨3, ![1, 300, 300]⟩
abbrev S2048x300x300 : Shape := ⟨3, ![2048, 300, 300]⟩

abbrev nBuf : Space → Nat
  | .hbm => 33
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x300, .f32⟩
  | .hbm, ⟨2, _⟩ => ⟨S300x64, .f32⟩
  | .hbm, ⟨3, _⟩ => ⟨S300, .f32⟩
  | .hbm, ⟨4, _⟩ => ⟨S300x64, .f32⟩
  | .hbm, ⟨5, _⟩ => ⟨S300, .f32⟩
  | .hbm, ⟨6, _⟩ => ⟨S64x300, .f32⟩
  | .hbm, ⟨7, _⟩ => ⟨S2048x300, .f32⟩
  | .hbm, ⟨8, _⟩ => ⟨S1x300, .f32⟩
  | .hbm, ⟨9, _⟩ => ⟨S2048x300, .f32⟩
  | .hbm, ⟨10, _⟩ => ⟨S2048x300, .f32⟩
  | .hbm, ⟨11, _⟩ => ⟨S64x300, .f32⟩
  | .hbm, ⟨12, _⟩ => ⟨S2048x300, .f32⟩
  | .hbm, ⟨13, _⟩ => ⟨S1x300, .f32⟩
  | .hbm, ⟨14, _⟩ => ⟨S2048x300, .f32⟩
  | .hbm, ⟨15, _⟩ => ⟨S2048x300, .f32⟩
  | .hbm, ⟨16, _⟩ => ⟨S2048x300, .f32⟩
  | .hbm, ⟨17, _⟩ => ⟨S2048x300, .f32⟩
  | .hbm, ⟨18, _⟩ => ⟨S300x300, .i32⟩
  | .hbm, ⟨19, _⟩ => ⟨S300x300, .i32⟩
  | .hbm, ⟨20, _⟩ => ⟨S_, .i32⟩
  | .hbm, ⟨21, _⟩ => ⟨S300x300, .i32⟩
  | .hbm, ⟨22, _⟩ => ⟨S300x300, .i32⟩
  | .hbm, ⟨23, _⟩ => ⟨S300x300, .i1⟩
  | .hbm, ⟨24, _⟩ => ⟨S300x300, .f32⟩
  | .hbm, ⟨25, _⟩ => ⟨S_, .f32⟩
  | .hbm, ⟨26, _⟩ => ⟨S2048x300, .f32⟩
  | .hbm, ⟨27, _⟩ => ⟨S2048x300, .f32⟩
  | .hbm, ⟨28, _⟩ => ⟨S2048x300x1, .f32⟩
  | .hbm, ⟨29, _⟩ => ⟨S1x300x300, .f32⟩
  | .hbm, ⟨30, _⟩ => ⟨S2048x300x300, .f32⟩
  | .hbm, ⟨31, _⟩ => ⟨S2048x300x300, .f32⟩
  | .hbm, ⟨32, _⟩ => ⟨S2048x300x300, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  transposes_S300x64_S64x300_1_0 : S300x64.Transposes [1, 0] S64x300
  bcast_S300_S1x300_1 : S300.BroadcastsInDim S1x300 (![1] : Fin 1 → Fin S1x300.rank)
  bcast_S1x300_S2048x300_0_1 : S1x300.BroadcastsInDim S2048x300 (![0, 1] : Fin 2 → Fin S2048x300.rank)
  bcast_S_S300x300 : S_.BroadcastsInDim S300x300 (![] : Fin 0 → Fin S300x300.rank)
  bcast_S_S2048x300 : S_.BroadcastsInDim S2048x300 (![] : Fin 0 → Fin S2048x300.rank)
  bcast_S2048x300_S2048x300x1_0_1 : S2048x300.BroadcastsInDim S2048x300x1 (![0, 1] : Fin 2 → Fin S2048x300x1.rank)
  bcast_S300x300_S1x300x300_1_2 : S300x300.BroadcastsInDim S1x300x300 (![1, 2] : Fin 2 → Fin S1x300x300.rank)
  bcast_S2048x300x1_S2048x300x300_0_1_2 : S2048x300x1.BroadcastsInDim S2048x300x300 (![0, 1, 2] : Fin 3 → Fin S2048x300x300.rank)
  bcast_S1x300x300_S2048x300x300_0_1_2 : S1x300x300.BroadcastsInDim S2048x300x300 (![0, 1, 2] : Fin 3 → Fin S2048x300x300.rank)
  dot_S2048x64_S64x300_S2048x300_1_0_0_1_n_n_wf : DotDims.WF S2048x64 S64x300 S2048x300 [1] [0] [0] [1] [] []

variable [Facts₀]

def dot_S2048x64_S64x300_S2048x300_1_0_0_1_n_n : DotDims S2048x64 S64x300 S2048x300 where
  lhsContracting := [1]
  rhsContracting := [0]
  lhsNonContracting := [0]
  rhsNonContracting := [1]
  lhsBatch := []
  rhsBatch := []
  wf := dot_S2048x64_S64x300_S2048x300_1_0_0_1_n_n_wf

class Facts : Prop extends Facts₀ where

variable [Facts]
-- ==== Proof.Spec.lean ====
/-
  The specification. Both programs compute, from the batch `b : [2048, 64]`, the targets `labels : [2048, 300]` and
  two linear layers `(w, β) : [300, 64] × [300]`:
    diff (i, j)     = labels (i, j) − lin μ (i, j)
    final (i, r, l) = (1 / (lin σ (i, r))²) · [r = l]
  where `lin (w, β) (i, j) = Σ_k b (i, k) · w (j, k) + β (j)` over the extended reals and `[r = l]` is the 0/1 indicator
  of the diagonal. Also here: the two ways the programs compute the indicator from integer coordinates.
-/
import Idealize.ShloMosaic.PureOps.Ideal
import Idealize.ShloMosaic.Lib.ValueIdx
import Idealize.ShloMosaic.Lib.Affine

noncomputable section

namespace Cert.Spec

open Idealize.ShloMosaic Idealize.ShloMosaic.ValueIdx

/-- One linear layer at batch row `i` and output feature `j`. -/
def lin (b : FVec Ideal ⟨2, ![2048, 64]⟩ .f32) (w : FVec Ideal ⟨2, ![300, 64]⟩ .f32) (β : FVec Ideal ⟨1, ![300]⟩ .f32)
    (i : Fin 2048) (j : Fin 300) : EReal :=
  (∑ k : Fin 64, b (ix2 i k) * w (ix2 j k)) + β (ix1 j)

/-- The indicator of the diagonal, as an extended real. -/
def ind (r l : ℕ) : EReal := if r = l then 1 else 0

/-- The reciprocal of the variance, `1 / s²`, with the programs' own literal for one. -/
def invVar (s : EReal) : EReal := Ideal.div (Ideal.ofBits .f32 0x3F800000#32) (s * s)

/-- The first result: the targets less the mean layer. -/
def diffG (b : FVec Ideal ⟨2, ![2048, 64]⟩ .f32) (labels : FVec Ideal ⟨2, ![2048, 300]⟩ .f32)
    (w : FVec Ideal ⟨2, ![300, 64]⟩ .f32) (β : FVec Ideal ⟨1, ![300]⟩ .f32) : FVec Ideal ⟨2, ![2048, 300]⟩ .f32 :=
  fun y => labels y - lin b w β ⟨(y 0).val, (y 0).isLt⟩ ⟨(y 1).val, (y 1).isLt⟩

/-- The second result: per sample, the diagonal matrix of reciprocal variances. -/
def finalG (b : FVec Ideal ⟨2, ![2048, 64]⟩ .f32) (w : FVec Ideal ⟨2, ![300, 64]⟩ .f32) (β : FVec Ideal ⟨1, ![300]⟩ .f32) :
    FVec Ideal ⟨3, ![2048, 300, 300]⟩ .f32 :=
  fun y => invVar (lin b w β ⟨(y 0).val, (y 0).isLt⟩ ⟨(y 1).val, (y 1).isLt⟩) * ind (y 1).val (y 2).val

/-! ## The indicator from integer coordinates -/

private theorem ofNat_ne {a l : ℕ} (ha : a < 2 ^ 32) (hl : l < 2 ^ 32) (h : a ≠ l) : BitVec.ofNat 32 a ≠ BitVec.ofNat 32 l := by
  intro e
  have := congrArg BitVec.toNat e
  rw [BitVec.toNat_ofNat, BitVec.toNat_ofNat, Nat.mod_eq_of_lt ha, Nat.mod_eq_of_lt hl] at this
  exact h this

/-- A one-bit comparison of two small naturals, widened to 32 bits and read as a signed integer, is the indicator:
    the chunked program's way (row number = row in chunk + chunk offset). -/
theorem ind_widened (q c l : ℕ) (h : q + c < 2 ^ 32) (hl : l < 2 ^ 32) :
    FloatOps.sitofp (F := Ideal) .f32
        ((IntOp.cmpi .eq (IntOp.addi (BitVec.ofNat 32 q) (BitVec.ofNat 32 c)) (BitVec.ofNat 32 l)).setWidth 32)
      = ind (c + q) l := by
  have hadd : IntOp.addi (BitVec.ofNat 32 q) (BitVec.ofNat 32 c) = BitVec.ofNat 32 (q + c) := by
    show BitVec.ofNat 32 q + BitVec.ofNat 32 c = _
    rw [BitVec.ofNat_add]
  rw [hadd]
  show (((((IntOp.cmpi .eq (BitVec.ofNat 32 (q + c)) (BitVec.ofNat 32 l)).setWidth 32).toInt : ℤ) : ℝ) : EReal) = _
  by_cases e : c + q = l
  · have h1 : IntOp.cmpi .eq (BitVec.ofNat 32 (q + c)) (BitVec.ofNat 32 l) = 1#1 :=
      IntOp.cmpi_eq.mpr (by rw [← e, Nat.add_comm])
    rw [h1, ind, if_pos e]
    have : ((1#1 : BitVec 1).setWidth 32).toInt = 1 := by decide
    rw [this]; norm_num
  · have h0 : IntOp.cmpi .eq (BitVec.ofNat 32 (q + c)) (BitVec.ofNat 32 l) = 0#1 :=
      eq_zero_of_ne_one (mt IntOp.cmpi_eq.mp (ofNat_ne h hl (by omega)))
    rw [h0, ind, if_neg e]
    have : ((0#1 : BitVec 1).setWidth 32).toInt = 0 := by decide
    rw [this]; norm_num

/-- A one-bit comparison of two small naturals read as an unsigned integer is the indicator: the whole-array
    program's way (row number plus a zero offset). -/
theorem ind_unsigned (r l : ℕ) (h : r < 2 ^ 32) (hl : l < 2 ^ 32) :
    FloatOps.uitofp (F := Ideal) .f32 (IntOp.cmpi .eq (IntOp.addi (BitVec.ofNat 32 r) 0#32) (BitVec.ofNat 32 l)) = ind r l := by
  have hadd : IntOp.addi (BitVec.ofNat 32 r) 0#32 = BitVec.ofNat 32 r := by
    show BitVec.ofNat 32 r + 0#32 = _
    rw [BitVec.add_zero]
  rw [hadd]
  show ((((IntOp.cmpi .eq (BitVec.ofNat 32 r) (BitVec.ofNat 32 l)).toNat : ℕ) : ℝ) : EReal) = _
  by_cases e : r = l
  · have h1 : IntOp.cmpi .eq (BitVec.ofNat 32 r) (BitVec.ofNat 32 l) = 1#1 := IntOp.cmpi_eq.mpr (by rw [e])
    rw [h1, ind, if_pos e]
    have : (1#1 : BitVec 1).toNat = 1 := by decide
    rw [this]; norm_num
  · have h0 : IntOp.cmpi .eq (BitVec.ofNat 32 r) (BitVec.ofNat 32 l) = 0#1 :=
      eq_zero_of_ne_one (mt IntOp.cmpi_eq.mp (ofNat_ne h hl e))
    rw [h0, ind, if_neg e]
    have : (0#1 : BitVec 1).toNat = 0 := by decide
    rw [this]; norm_num

end Cert.Spec

end
-- ==== Proof.LibLayout3.lean ====
/-
  Rank-three layout operations read at an index written by coordinates: a matrix `[a, b]` recast with a trailing
  unit axis `[a, b, 1]`; that array broadcast along its last axis to `[a, b, d]`; and a one-slab array `[1, b, d]`
  broadcast along its first axis to `[a, b, d]`. Each reads its operand at the coordinates that survive.
-/
import Idealize.ShloMosaic.Lib.Pipeline.Value
import Idealize.ShloMosaic.Lib.ValueIdx

namespace Idealize.ShloMosaic.ValueIdx

variable {α : Type}

/-- An `[a, b]` matrix cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, d]` reads, at `(i, j, l)`, the operand at `(i, j, 0)`. -/
theorem broadcastTo_ab1_abd_apply {a b d : ℕ} (v : (⟨3, ![a, b, 1]⟩ : Shape).Idx → α)
    (h : (⟨3, ![a, b, 1]⟩ : Shape).Broadcasts ⟨3, ![a, b, d]⟩) (i : Fin a) (j : Fin b) (l : Fin d) :
    broadcastTo ⟨3, ![a, b, d]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, d]` array broadcast to `[a, b, d]` reads, at `(i, j, l)`, the operand's one slab at `(j, l)`. -/
theorem broadcastTo_1bd_abd_apply {a b d : ℕ} (v : (⟨3, ![1, b, d]⟩ : Shape).Idx → α)
    (h : (⟨3, ![1, b, d]⟩ : Shape).Broadcasts ⟨3, ![a, b, d]⟩) (i : Fin a) (j : Fin b) (l : Fin d) :
    broadcastTo ⟨3, ![a, b, d]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if d = 1 then 0 else l.val
    split
    · have := l.isLt; omega
    · rfl

end Idealize.ShloMosaic.ValueIdx
-- ==== Proof.Chunk.lean ====
/-
  One row-chunk of the diagonal store, read at an index. The chunk starting at row `c`, of `n` rows, is the product
  of two broadcasts: the reciprocal variances' columns `c … c + n − 1` (sliced out, given a trailing unit axis and
  repeated along the last axis) and the chunk's piece of the identity (row-in-chunk plus `c` compared with the
  column, widened, converted, given a leading unit axis and repeated along the batch axis). At `(p, q, l)` it is
  the reciprocal variance at `(p, c + q)` times the indicator of `c + q = l`.
-/
import Idealize.ShloMosaic.Lib.ValueLayout
import Idealize.ShloMosaic.Lib.Pipeline.Value
import proofs.«131339_j28604482192086_2_alg».proof.Proof.Spec
import proofs.«131339_j28604482192086_2_alg».proof.Proof.LibLayout3

noncomputable section

namespace Cert.Chunk

open Idealize.ShloMosaic Idealize.ShloMosaic.ValueIdx

theorem chunk_apply (n c : ℕ) (hcn : c + n ≤ 300) (v : FVec Ideal ⟨2, ![32, 300]⟩ .f32)
    (hs : (⟨2, ![32, 300]⟩ : Shape).Slices ![0, c] ⟨2, ![32, n]⟩)
    (hc1 : (⟨2, ![32, n]⟩ : Shape).ShapeCasts ⟨3, ![32, n, 1]⟩)
    (hb1 : (⟨3, ![32, n, 1]⟩ : Shape).Broadcasts ⟨3, ![32, n, 300]⟩)
    (hi0 : (⟨2, ![n, 300]⟩ : Shape).Iotas .tc 32 [0]) (hi1 : (⟨2, ![n, 300]⟩ : Shape).Iotas .tc 32 [1])
    (hc2 : (⟨2, ![n, 300]⟩ : Shape).ShapeCasts ⟨3, ![1, n, 300]⟩)
    (hb2 : (⟨3, ![1, n, 300]⟩ : Shape).Broadcasts ⟨3, ![32, n, 300]⟩)
    (p : Fin 32) (q : Fin n) (l : Fin 300) (k : Fin 300) (hk : k.val = c + q.val) :
    mulf (broadcastTo ⟨3, ![32, n, 300]⟩ (shapeCast ⟨3, ![32, n, 1]⟩ (extractStridedSlice ⟨2, ![32, n]⟩ ![0, c] v hs) hc1) hb1)
        (broadcastTo ⟨3, ![32, n, 300]⟩ (shapeCast ⟨3, ![1, n, 300]⟩
          (sitofp (F := Ideal) .f32 (extui 32 (cmpi .eq (addi (iota .tc ⟨2, ![n, 300]⟩ 32 [0] hi0) (broadcast ⟨2, ![n, 300]⟩ (BitVec.ofNat 32 c)))
            (iota .tc ⟨2, ![n, 300]⟩ 32 [1] hi1)) (by decide : 1 < 32))) hc2) hb2)
        (ix3 p q l)
      = v (ix2 p k) * Cert.Spec.ind k.val l.val := by
  have hq := q.isLt
  have hl := l.isLt
  rw [mulf_apply, broadcastTo_ab1_abd_apply, shapeCast_ab_ab1_apply, slice2_axis1_apply c v hs p q k hk,
    broadcastTo_1bd_abd_apply, shapeCast_ab_1ab_apply, sitofp_apply, extui_apply]
  show v (ix2 p k) * FloatOps.sitofp (F := Ideal) .f32 ((IntOp.cmpi .eq (IntOp.addi (iota .tc ⟨2, ![n, 300]⟩ 32 [0] hi0 (ix2 q l)) (BitVec.ofNat 32 c))
      (iota .tc ⟨2, ![n, 300]⟩ 32 [1] hi1 (ix2 q l))).setWidth 32) = _
  rw [iota_single_apply, iota_single_apply, hk]
  exact congrArg (v (ix2 p k) * ·) (Cert.Spec.ind_widened q.val c l.val (by omega) (by omega))

end Cert.Chunk

end
-- ==== Proof.KPieces.lean ====
/-
  What the body leaves in its two output tiles, as functions of the tile's loads. The `[32, 300, 300]` tile is filled
  by 38 stores of consecutive row-chunks (37 of eight rows, one of four): every chunk is the same function of the tile
  index — the reciprocal variance at `(p, r)` times the indicator of `r = l` — restricted to its rows, and the chunks
  cover the tile, so the tile holds that one function. The `[32, 300]` tile is written by one whole store.
-/
import proofs.«131339_j28604482192086_2_alg».proof.Proof.Gen.KernelIdeal.Frame
import proofs.«131339_j28604482192086_2_alg».proof.Proof.Chunk
import Idealize.ShloMosaic.Lib.Pipeline.Value

noncomputable section

namespace Cert.KernelIdeal.KValue

open Cert.KernelIdeal Cert.KernelIdeal.Gen Idealize.ShloMosaic Idealize.ShloMosaic.ValueIdx Idealize.ShloMosaic.TcCoe
open Idealize.ShloMosaic.Tactic Idealize.SL.Sem

theorem hz2 : (![0, 0] : Fin 2 → Nat) = fun _ => 0 := funext fun a => by fin_cases a <;> rfl
theorem hz1 : (![0] : Fin 1 → Nat) = fun _ => 0 := funext fun a => by fin_cases a; rfl

/-- The output tile as a function of the tile's reciprocal variances `v`: at `(p, r, l)`, `v (p, r) · [r = l]`. -/
def tileG (v : FVec Ideal S32x300 .f32) : Vec Ideal S32x300x300 .f32 :=
  fun y => v (ix2 (⟨(y 0).val, (y 0).isLt⟩ : Fin 32) (⟨(y 1).val, (y 1).isLt⟩ : Fin 300)) * Cert.Spec.ind (y 1).val (y 2).val

/-- One stored chunk, at its own index, is `tileG` at the tile index the chunk's rectangle puts it. -/
theorem piece_apply (n c : ℕ) (inb : ∀ a, (![0, c, 0] : Fin 3 → Nat) a + (![32, n, 300] : Fin 3 → ℕ) a ≤ S32x300x300.size a)
    (v : FVec Ideal S32x300 .f32)
    (hs : S32x300.Slices ![0, c] ⟨2, ![32, n]⟩)
    (hc1 : (⟨2, ![32, n]⟩ : Shape).ShapeCasts ⟨3, ![32, n, 1]⟩)
    (hb1 : (⟨3, ![32, n, 1]⟩ : Shape).Broadcasts ⟨3, ![32, n, 300]⟩)
    (hi0 : (⟨2, ![n, 300]⟩ : Shape).Iotas .tc 32 [0]) (hi1 : (⟨2, ![n, 300]⟩ : Shape).Iotas .tc 32 [1])
    (hc2 : (⟨2, ![n, 300]⟩ : Shape).ShapeCasts ⟨3, ![1, n, 300]⟩)
    (hb2 : (⟨3, ![1, n, 300]⟩ : Shape).Broadcasts ⟨3, ![32, n, 300]⟩)
    (x : (Rect.unit (s := S32x300x300) ![0, c, 0] ![32, n, 300] inb).shape.Idx) :
    mulf (broadcastTo ⟨3, ![32, n, 300]⟩ (shapeCast ⟨3, ![32, n, 1]⟩ (extractStridedSlice ⟨2, ![32, n]⟩ ![0, c] v hs) hc1) hb1)
        (broadcastTo ⟨3, ![32, n, 300]⟩ (shapeCast ⟨3, ![1, n, 300]⟩
          (sitofp (F := Ideal) .f32 (extui 32 (cmpi .eq (addi (iota .tc ⟨2, ![n, 300]⟩ 32 [0] hi0) (broadcast ⟨2, ![n, 300]⟩ (BitVec.ofNat 32 c)))
            (iota .tc ⟨2, ![n, 300]⟩ 32 [1] hi1)) (by decide : 1 < 32))) hc2) hb2) x
      = tileG v ((Rect.unit (s := S32x300x300) ![0, c, 0] ![32, n, 300] inb).emb x) := by
  have hcn : c + n ≤ 300 := inb 1
  obtain ⟨p, q, l, rfl⟩ : ∃ (p : Fin 32) (q : Fin n) (l : Fin 300), x = ix3 p q l := ⟨x 0, x 1, x 2, eq_ix3 x⟩
  have hq := q.isLt
  refine (Cert.Chunk.chunk_apply n c hcn v hs hc1 hb1 hi0 hi1 hc2 hb2 p q l ⟨c + q.val, by omega⟩ rfl).trans ?_
  have e0 : ((Rect.unit (s := S32x300x300) ![0, c, 0] ![32, n, 300] inb).emb (ix3 p q l) 0).val = p.val := by
    show 0 + 1 * p.val = p.val; omega
  have e1 : ((Rect.unit (s := S32x300x300) ![0, c, 0] ![32, n, 300] inb).emb (ix3 p q l) 1).val = c + q.val := by
    show c + 1 * q.val = c + q.val; omega
  have e2 : ((Rect.unit (s := S32x300x300) ![0, c, 0] ![32, n, 300] inb).emb (ix3 p q l) 2).val = l.val := by
    show 0 + 1 * l.val = l.val; omega
  unfold tileG
  exact congrArg₂ (· * ·) (congrArg v (funext fun a => by
      match a with
      | ⟨0, _⟩ => exact Fin.ext e0.symm
      | ⟨1, _⟩ => exact Fin.ext e1.symm)) (congrArg₂ Cert.Spec.ind e1.symm e2.symm)

/-- The `[32, 300, 300]` tile after the body. -/
theorem out4_eq (c : Dev nD) (i : grid0.Coords) (arg1 : Memref sig .tc .vmem S32x64 .f32) (harg1 : arg1.IsWhole) (arg2 : Memref sig .tc .vmem S32x300 .f32) (harg2 : arg2.IsWhole) (arg3 : Memref sig .tc .vmem S64x600 .f32) (harg3 : arg3.IsWhole) (arg4 : Memref sig .tc .vmem S600 .f32) (harg4 : arg4.IsWhole) (arg5 : Memref sig .tc .vmem S32x300x300 .f32) (harg5 : arg5.IsWhole) (arg6 : Memref sig .tc .vmem S32x300 .f32) (harg6 : arg6.IsWhole)
    (x0 : Vec Ideal S32x64 .f32) (x1 : Vec Ideal S32x300 .f32) (x2 : Vec Ideal S64x600 .f32) (x3 : Vec Ideal S600 .f32) :
    out0_A_4 (F := Ideal) c i arg1 harg1 arg2 harg2 arg3 harg3 arg4 harg4 arg5 harg5 arg6 harg6 x0 x1 x2 x3 = tileG (k0_pay5 x0 x2 x3) := by
  unfold out0_A_4
  rw [View.read_writes_junk_eq_canon]
  funext y
  refine View.canon_apply_of_pieces (tileG (k0_pay5 x0 x2 x3)) _ ?_ y (cover0_A_4 c i arg1 harg1 arg2 harg2 arg3 harg3 arg4 harg4 arg5 harg5 arg6 harg6 x0 x1 x2 x3 y)
  unfold kernelRun0_A
  dsimp only
  sl_unfold_run_names
  simp only [View.readAt_eq_ld, harg1.read_unread, harg3.read_unread, harg4.read_unread,
    View.ld_unit_zero (S := S32x64) hz2, View.ld_unit_zero (S := S64x600) hz2, View.ld_unit_zero (S := S600) hz1]
  intro p hp
  simp only [List.mem_cons, List.mem_nil_iff, or_false] at hp
  -- one case per store
  repeat' (rcases hp with rfl | hp)
  all_goals (first | subst hp | skip)
  all_goals (intro x; dsimp only at x ⊢; exact piece_apply _ _ _ _ (by decide) (by decide) (by decide) (by decide) (by decide) (by decide) (by decide) x)

/-- The `[32, 300]` tile after the body: the one whole store's payload. -/
theorem out5_eq (c : Dev nD) (i : grid0.Coords) (arg1 : Memref sig .tc .vmem S32x64 .f32) (harg1 : arg1.IsWhole) (arg2 : Memref sig .tc .vmem S32x300 .f32) (harg2 : arg2.IsWhole) (arg3 : Memref sig .tc .vmem S64x600 .f32) (harg3 : arg3.IsWhole) (arg4 : Memref sig .tc .vmem S600 .f32) (harg4 : arg4.IsWhole) (arg5 : Memref sig .tc .vmem S32x300x300 .f32) (harg5 : arg5.IsWhole) (arg6 : Memref sig .tc .vmem S32x300 .f32) (harg6 : arg6.IsWhole)
    (x0 : Vec Ideal S32x64 .f32) (x1 : Vec Ideal S32x300 .f32) (x2 : Vec Ideal S64x600 .f32) (x3 : Vec Ideal S600 .f32) :
    out0_A_5 (F := Ideal) c i arg1 harg1 arg2 harg2 arg3 harg3 arg4 harg4 arg5 harg5 arg6 harg6 x0 x1 x2 x3 = k0_pay4 x0 x2 x3 x1 := by
  unfold out0_A_5
  rw [View.read_writes_junk_eq_canon]
  unfold kernelRun0_A
  dsimp only
  rw [View.canon_unit_zero hz2]
  simp only [View.readAt_eq_ld, harg1.read_unread, harg2.read_unread, harg3.read_unread, harg4.read_unread,
    View.ld_unit_zero (S := S32x64) hz2, View.ld_unit_zero (S := S64x600) hz2, View.ld_unit_zero (S := S600) hz1,
    View.ld_unit_zero (S := S32x300) hz2]

end Cert.KernelIdeal.KValue

end
-- ==== Proof.KPay.lean ====
/-
  The chunked program's arithmetic on one batch tile, read at an index. The fused layer is one `[32, 64] × [64, 600]`
  product into a zero accumulator plus the fused bias row: at `(p, j)` the dot product of tile row `p` with column
  `j` of the fused weights, plus fused bias `j`. Its first 300 columns are the mean layer, the last 300 the scale
  layer; the stored difference is the targets less the first half, the reciprocal variance `1 / s²` of the second.
-/
import proofs.«131339_j28604482192086_2_alg».proof.Proof.Gen.KernelIdeal.Skeleton
import proofs.«131339_j28604482192086_2_alg».proof.Proof.Spec
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- The tile's fused layer at `(p, j)`. -/
def fused (v0 : Vec Ideal S32x64 .f32) (v1 : Vec Ideal S64x600 .f32) (v4 : Vec Ideal S600 .f32) (p : Fin 32) (j : Fin 600) : EReal :=
  (∑ k : Fin 64, v0 (ix2 p k) * v1 (ix2 k j)) + v4 (ix1 j)

theorem lhs0 (i : S32x600.Idx) (q : dot_S32x64_S64x600_S32x600_1_0_0_1_n_n.contr.Idx) :
    (dot_S32x64_S64x600_S32x600_1_0_0_1_n_n.lhsIdx i q 0).val = (i 0).val := by
  unfold DotDims.lhsIdx
  rw [dif_neg (show ¬(0 : Fin S32x64.rank) ∈ dot_S32x64_S64x600_S32x600_1_0_0_1_n_n.lhsBatch by decide),
    dif_pos (show (0 : Fin S32x64.rank) ∈ dot_S32x64_S64x600_S32x600_1_0_0_1_n_n.lhsNonContracting by decide)]
  rfl

theorem rhs1 (i : S32x600.Idx) (q : dot_S32x64_S64x600_S32x600_1_0_0_1_n_n.contr.Idx) :
    (dot_S32x64_S64x600_S32x600_1_0_0_1_n_n.rhsIdx i q 1).val = (i 1).val := by
  unfold DotDims.rhsIdx
  rw [dif_neg (show ¬(1 : Fin S64x600.rank) ∈ dot_S32x64_S64x600_S32x600_1_0_0_1_n_n.rhsBatch by decide),
    dif_pos (show (1 : Fin S64x600.rank) ∈ dot_S32x64_S64x600_S32x600_1_0_0_1_n_n.rhsNonContracting by decide)]
  rfl

/-- The tile product into a zero accumulator is the plain dot product. -/
theorem product_apply (v0 : FVec Ideal S32x64 .f32) (v1 : FVec Ideal S64x600 .f32) (p : Fin 32) (j : Fin 600) :
    matmul dot_S32x64_S64x600_S32x600_1_0_0_1_n_n (some .fp32) v0 v1 (constant S32x600 .f32 0x00000000#32) (ix2 p j)
      = ∑ k : Fin 64, v0 (ix2 p k) * v1 (ix2 k j) := by
  refine (Ideal.matmul_constant_zero_apply dot_S32x64_S64x600_S32x600_1_0_0_1_n_n (some .fp32) v0 v1 (ix2 p j)).trans ?_
  rw [← Equiv.sum_comp (contrEquiv1 dot_S32x64_S64x600_S32x600_1_0_0_1_n_n 64 rfl rfl).symm]
  refine Finset.sum_congr rfl fun k _ => ?_
  have hk := contrEquiv1_symm_val dot_S32x64_S64x600_S32x600_1_0_0_1_n_n 64 rfl rfl k
  have el : dot_S32x64_S64x600_S32x600_1_0_0_1_n_n.lhsIdx (ix2 p j) ((contrEquiv1 dot_S32x64_S64x600_S32x600_1_0_0_1_n_n 64 rfl rfl).symm k) = ix2 p k :=
    funext fun a => Fin.ext (by
      match a with
      | ⟨0, _⟩ => exact lhs0 _ _
      | ⟨1, _⟩ => exact (dot_S32x64_S64x600_S32x600_1_0_0_1_n_n.lhsIdx_val_of_single rfl _ _).trans hk)
  have er : dot_S32x64_S64x600_S32x600_1_0_0_1_n_n.rhsIdx (ix2 p j) ((contrEquiv1 dot_S32x64_S64x600_S32x600_1_0_0_1_n_n 64 rfl rfl).symm k) = ix2 k j :=
    funext fun a => Fin.ext (by
      match a with
      | ⟨0, _⟩ => exact (dot_S32x64_S64x600_S32x600_1_0_0_1_n_n.rhsIdx_val_of_single rfl _ _).trans hk
      | ⟨1, _⟩ => exact rhs1 _ _)
  rw [el, er]

/-- The fused layer's payload at `(p, j)`. -/
theorem pay3_apply (v0 : Vec Ideal S32x64 .f32) (v1 : Vec Ideal S64x600 .f32) (v4 : Vec Ideal S600 .f32) (p : Fin 32) (j : Fin 600) :
    k0_pay3 v0 v1 v4 (ix2 p j) = fused v0 v1 v4 p j := by
  unfold k0_pay3 fused
  refine (addf_apply _ _ _).trans ?_
  refine congrArg₂ (· + ·) ?_ ?_
  · rw [shapeCast_self]
    exact product_apply v0 v1 p j
  · refine (broadcastTo_1b_ab_apply _ _ p j).trans ?_
    refine (shapeCast_a_1a_apply _ _ _ j).trans ?_
    rw [shapeCast_self]

/-- The stored difference at `(p, q)`: the target less the fused layer's column `q`. -/
theorem pay4_apply (v0 : Vec Ideal S32x64 .f32) (v1 : Vec Ideal S64x600 .f32) (v4 : Vec Ideal S600 .f32) (v12 : Vec Ideal S32x300 .f32)
    (p : Fin 32) (q : Fin 300) (j : Fin 600) (hj : j.val = 0 + q.val) :
    k0_pay4 v0 v1 v4 v12 (ix2 p q) = v12 (ix2 p q) - fused v0 v1 v4 p j := by
  unfold k0_pay4
  refine (subf_apply _ _ _).trans ?_
  refine congrArg (v12 (ix2 p q) - ·) ?_
  refine (slice2_axis1_apply 0 _ _ p q j hj).trans ?_
  exact pay3_apply v0 v1 v4 p j

/-- The reciprocal variance at `(p, q)`: one over the square of the fused layer's column `300 + q`. -/
theorem pay5_apply (v0 : Vec Ideal S32x64 .f32) (v1 : Vec Ideal S64x600 .f32) (v4 : Vec Ideal S600 .f32)
    (p : Fin 32) (q : Fin 300) (j : Fin 600) (hj : j.val = 300 + q.val) :
    k0_pay5 v0 v1 v4 (ix2 p q) = Cert.Spec.invVar (fused v0 v1 v4 p j) := by
  unfold k0_pay5 Cert.Spec.invVar
  refine (divf_apply _ _ _).trans ?_
  refine congrArg₂ Ideal.div rfl ?_
  refine (mulf_apply _ _ _).trans ?_
  have e : extractStridedSlice S32x300 ![0, 300] (k0_pay3 v0 v1 v4) slices_S32x600_o0_300_S32x300 (ix2 p q) = fused v0 v1 v4 p j :=
    (slice2_axis1_apply 300 _ _ p q j hj).trans (pay3_apply v0 v1 v4 p j)
  rw [e]

/-- A tile row's fused layer at a column is a whole-array layer at the row's batch index, once the tile row is the
    batch row, the fused weights' column the layer's weight row and the fused bias entry the layer's bias. -/
theorem fused_eq_lin (X0 : Vec Ideal S32x64 .f32) (X2 : Vec Ideal S64x600 .f32) (X3 : Vec Ideal S600 .f32)
    (b : FVec Ideal ⟨2, ![2048, 64]⟩ .f32) (w : FVec Ideal ⟨2, ![300, 64]⟩ .f32) (β : FVec Ideal ⟨1, ![300]⟩ .f32)
    (p : Fin 32) (P : Fin 2048) (q : Fin 300) (j : Fin 600)
    (h0 : ∀ k : Fin 64, X0 (ix2 p k) = b (ix2 P k)) (h2 : ∀ k : Fin 64, X2 (ix2 k j) = w (ix2 q k))
    (h3 : X3 (ix1 j) = β (ix1 q)) :
    fused X0 X2 X3 p j = Cert.Spec.lin b w β P q := by
  unfold fused Cert.Spec.lin
  rw [h3]
  exact congrArg (· + β (ix1 q)) (Finset.sum_congr rfl fun k _ => by rw [h0, h2])

end Cert.KernelIdeal.KValue

end
-- ==== Proof.KHost.lean ====
/-
  The two arrays the host prepares before the region, read at an index: the fused weights `[64, 600]` are the two
  weight matrices transposed and laid side by side (columns `0 … 299` the mean layer's, `300 … 599` the scale
  layer's), the fused bias `[600]` the two biases end to end.
-/
import proofs.«131339_j28604482192086_2_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

theorem V_v2 (c : Dev nD) : V m c main_v2 = concatenate S64x600 1
    [⟨S64x300, transpose S64x300 [1, 0] (m ((c : Thread nD τ).loc main_arg2)) transposes_S300x64_S64x300_1_0⟩,
     ⟨S64x300, transpose S64x300 [1, 0] (m ((c : Thread nD τ).loc main_arg4)) transposes_S300x64_S64x300_1_0⟩]
    concatenates_S64x300_S64x300_S64x600_d1 := by
  unfold V; after_results

theorem V_v3 (c : Dev nD) : V m c main_v3 = concatenate S600 0
    [⟨S300, m ((c : Thread nD τ).loc main_arg3)⟩, ⟨S300, m ((c : Thread nD τ).loc main_arg5)⟩]
    concatenates_S300_S300_S600_d0 := by
  unfold V; after_results

/-- A mean-layer column of the fused weights. -/
theorem fusedW_left (c : Dev nD) (k : Fin 64) (q : Fin 300) (j : Fin 600) (hj : j.val = q.val) :
    V m c main_v2 (ix2 k j) = m ((c : Thread nD τ).loc main_arg2) (ix2 q k) := by
  rw [V_v2]
  refine (concatenate_pair_apply_left (t := S64x600) (s₁ := S64x300) (s₂ := S64x300) (1 : Fin 2) _ _ concatenates_S64x300_S64x300_S64x600_d1 (ix2 k j) rfl (ix2 k q)
    (fun b => by match b with | ⟨0, _⟩ => rfl | ⟨1, _⟩ => exact hj.symm)).trans ?_
  exact transpose_ix2_apply _ _ k q

/-- A scale-layer column of the fused weights. -/
theorem fusedW_right (c : Dev nD) (k : Fin 64) (q : Fin 300) (j : Fin 600) (hj : j.val = 300 + q.val) :
    V m c main_v2 (ix2 k j) = m ((c : Thread nD τ).loc main_arg4) (ix2 q k) := by
  rw [V_v2]
  refine (concatenate_pair_apply_right (t := S64x600) (s₁ := S64x300) (s₂ := S64x300) (1 : Fin 2) _ _ concatenates_S64x300_S64x300_S64x600_d1 (ix2 k j) rfl rfl (ix2 k q)
    (fun b hb => by match b with | ⟨0, _⟩ => rfl | ⟨1, _⟩ => exact absurd rfl hb)
    (by show q.val + 300 = j.val; omega)).trans ?_
  exact transpose_ix2_apply _ _ k q

/-- The mean layer's half of the fused bias. -/
theorem fusedB_left (c : Dev nD) (q : Fin 300) (j : Fin 600) (hj : j.val = q.val) :
    V m c main_v3 (ix1 j) = m ((c : Thread nD τ).loc main_arg3) (ix1 q) := by
  rw [V_v3]
  exact concatenate_pair_apply_left (t := S600) (s₁ := S300) (s₂ := S300) (0 : Fin 1) _ _ concatenates_S300_S300_S600_d0 (ix1 j) rfl (ix1 q)
    (fun b => by match b with | ⟨0, _⟩ => exact hj.symm)

/-- The scale layer's half of the fused bias. -/
theorem fusedB_right (c : Dev nD) (q : Fin 300) (j : Fin 600) (hj : j.val = 300 + q.val) :
    V m c main_v3 (ix1 j) = m ((c : Thread nD τ).loc main_arg5) (ix1 q) := by
  rw [V_v3]
  exact concatenate_pair_apply_right (t := S600) (s₁ := S300) (s₂ := S300) (0 : Fin 1) _ _ concatenates_S300_S300_S600_d0 (ix1 j) rfl rfl (ix1 q)
    (fun b hb => by match b with | ⟨0, _⟩ => exact absurd rfl hb)
    (by show q.val + 300 = j.val; omega)

end Cert.KernelIdeal.KValue

end
-- ==== Proof.KValue.lean ====
/-
  From tiles to arrays. Grid point `t` works on batch rows `32 t … 32 t + 31`: its input tiles are those rows of the
  batch and of the targets, and the whole fused weights and bias; what it writes back are those rows of the two
  results. Read at an index, the tile's values are the specification's at the batch row `32 t + p`; the 64 tiles
  cover the batch axis, so each result array ends holding the specification's function of the arguments.
-/
import proofs.«131339_j28604482192086_2_alg».proof.Proof.Gen.KernelIdeal.Value
import proofs.«131339_j28604482192086_2_alg».proof.Proof.KPieces
import proofs.«131339_j28604482192086_2_alg».proof.Proof.KPay
import proofs.«131339_j28604482192086_2_alg».proof.Proof.KHost

noncomputable section

namespace Cert.KernelIdeal.KValue

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-- The printed index maps over the grid: the batch windows move with the point along axis 0, the fused weights and
    bias stay put. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- Every batch tile is some point's. -/
theorem idx_onto : ∀ q : Fin 64, ∃ t : Fin cfg0.N, t.val = q.val :=
  fun q => ⟨⟨q.val, Nat.lt_of_lt_of_eq q.isLt N_0.symm⟩, rfl⟩

/-! ## The input tiles read at an index -/

theorem tile_b (c : Dev nD) (t : Fin cfg0.N) (y : S32x64.Idx) (P : Fin 2048) (k : Fin 64)
    (hP : P.val = t.val * 32 + (y 0).val) (hk : k.val = (y 1).val) :
    iblk m c 0 t y = (m ((c : Thread nD τ).loc main_arg0)) (ix2 P k) := by
  obtain ⟨e00, e01, -⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 32 + 1 * (y 0).val = P.val; omega
  | ⟨1, _⟩ => show win0_0.index t (1 : Fin 2) * 64 + 1 * (y 1).val = k.val; omega

theorem tile_labels (c : Dev nD) (t : Fin cfg0.N) (y : S32x300.Idx) (i : S2048x300.Idx)
    (h0 : (i 0).val = t.val * 32 + (y 0).val) (h1 : (i 1).val = (y 1).val) :
    iblk m c 1 t y = (m ((c : Thread nD τ).loc main_arg1)) i := by
  obtain ⟨-, -, e10, e11, -⟩ := idx_facts t
  show V m c main_arg1 (((cfg0.win 1).blk t).view.emb y) = _
  rw [V_main_arg1]
  refine congrArg _ (funext fun a => Fin.ext ?_)
  match a with
  | ⟨0, _⟩ => show win0_1.index t (0 : Fin 2) * 32 + 1 * (y 0).val = (i 0).val; omega
  | ⟨1, _⟩ => show win0_1.index t (1 : Fin 2) * 300 + 1 * (y 1).val = (i 1).val; omega

theorem tile_w (c : Dev nD) (t : Fin cfg0.N) (y : S64x600.Idx) : iblk m c 2 t y = V m c main_v2 y := by
  obtain ⟨-, -, -, -, e20, e21, -⟩ := idx_facts t
  show V m c main_v2 (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 600 + 1 * (y 1).val = (y 1).val; omega

theorem tile_bias (c : Dev nD) (t : Fin cfg0.N) (y : S600.Idx) : iblk m c 3 t y = V m c main_v3 y := by
  obtain ⟨-, -, -, -, -, -, e30, -⟩ := idx_facts t
  show V m c main_v3 (((cfg0.win 3).blk t).view.emb y) = _
  refine congrArg _ (funext fun a => Fin.ext ?_)
  match a with
  | ⟨0, _⟩ => show win0_3.index t (0 : Fin 1) * 600 + 1 * (y 0).val = (y 0).val; omega

/-! ## The tile's two layers are the whole-array layers at the tile's batch rows -/

/-- The mean layer, on the tile's row `p` and column `q`. -/
theorem tile_mean (c : Dev nD) (t : Fin cfg0.N) (p : Fin 32) (q : Fin 300) (P : Fin 2048) (j : Fin 600)
    (hP : P.val = t.val * 32 + p.val) (hj : j.val = 0 + q.val) :
    fused (iblk m c 0 t) (iblk m c 2 t) (iblk m c 3 t) p j
      = Cert.Spec.lin (m ((c : Thread nD τ).loc main_arg0)) (m ((c : Thread nD τ).loc main_arg2)) (m ((c : Thread nD τ).loc main_arg3)) P q :=
  fused_eq_lin (iblk m c 0 t) (iblk m c 2 t) (iblk m c 3 t) (m ((c : Thread nD τ).loc main_arg0)) (m ((c : Thread nD τ).loc main_arg2)) (m ((c : Thread nD τ).loc main_arg3)) p P q j
    (fun k => tile_b m c t (ix2 p k) P k hP rfl)
    (fun k => (tile_w m c t (ix2 k j)).trans (fusedW_left m c k q j (by omega)))
    ((tile_bias m c t (ix1 j)).trans (fusedB_left m c q j (by omega)))

/-- The scale layer, on the tile's row `p` and column `300 + q`. -/
theorem tile_scale (c : Dev nD) (t : Fin cfg0.N) (p : Fin 32) (q : Fin 300) (P : Fin 2048) (j : Fin 600)
    (hP : P.val = t.val * 32 + p.val) (hj : j.val = 300 + q.val) :
    fused (iblk m c 0 t) (iblk m c 2 t) (iblk m c 3 t) p j
      = Cert.Spec.lin (m ((c : Thread nD τ).loc main_arg0)) (m ((c : Thread nD τ).loc main_arg4)) (m ((c : Thread nD τ).loc main_arg5)) P q :=
  fused_eq_lin (iblk m c 0 t) (iblk m c 2 t) (iblk m c 3 t) (m ((c : Thread nD τ).loc main_arg0)) (m ((c : Thread nD τ).loc main_arg4)) (m ((c : Thread nD τ).loc main_arg5)) p P q j
    (fun k => tile_b m c t (ix2 p k) P k hP rfl)
    (fun k => (tile_w m c t (ix2 k j)).trans (fusedW_right m c k q j hj))
    ((tile_bias m c t (ix1 j)).trans (fusedB_right m c q j hj))

/-! ## What each point writes back -/

/-- Point `t` writes back tile `t` of the specification's diagonal array. -/
theorem flushed4_eq (c : Dev nD) (t : Fin cfg0.N) :
    (dats m 0 c).flushed 4 t = ((cfg0.win 4).blk t).view.read (Elt Ideal)
      (Cert.Spec.finalG (m ((c : Thread nD τ).loc main_arg0)) (m ((c : Thread nD τ).loc main_arg4)) (m ((c : Thread nD τ).loc main_arg5))) := by
  rw [Cert.KernelIdeal.Value.flushed4_A, out4_eq]
  obtain ⟨-, -, -, -, -, -, -, e40, e41, e42, -⟩ := idx_facts t
  have ht : t.val < 64 := Nat.lt_of_lt_of_eq t.isLt N_0
  funext y
  have hy0 : (y 0).val < 32 := (y 0).isLt
  have hy1 : (y 1).val < 300 := (y 1).isLt
  have E0 : (((cfg0.win 4).blk t).view.emb y 0).val = t.val * 32 + (y 0).val := by
    show win0_4.index t (0 : Fin 3) * 32 + 1 * (y 0).val = _; omega
  have E1 : (((cfg0.win 4).blk t).view.emb y 1).val = (y 1).val := by
    show win0_4.index t (1 : Fin 3) * 300 + 1 * (y 1).val = _; omega
  have E2 : (((cfg0.win 4).blk t).view.emb y 2).val = (y 2).val := by
    show win0_4.index t (2 : Fin 3) * 300 + 1 * (y 2).val = _; omega
  show tileG (k0_pay5 (iblk m c 0 t) (iblk m c 2 t) (iblk m c 3 t)) y
    = Cert.Spec.finalG (m ((c : Thread nD τ).loc main_arg0)) (m ((c : Thread nD τ).loc main_arg4)) (m ((c : Thread nD τ).loc main_arg5)) (((cfg0.win 4).blk t).view.emb y)
  unfold tileG Cert.Spec.finalG
  refine congrArg₂ (· * ·) ?_ (congrArg₂ Cert.Spec.ind E1.symm E2.symm)
  refine (pay5_apply (iblk m c 0 t) (iblk m c 2 t) (iblk m c 3 t) ⟨(y 0).val, hy0⟩ ⟨(y 1).val, hy1⟩ ⟨300 + (y 1).val, by omega⟩ rfl).trans ?_
  refine congrArg Cert.Spec.invVar ?_
  refine (tile_scale m c t ⟨(y 0).val, hy0⟩ ⟨(y 1).val, hy1⟩
    ⟨(((cfg0.win 4).blk t).view.emb y 0).val, (((cfg0.win 4).blk t).view.emb y 0).isLt⟩ ⟨300 + (y 1).val, by omega⟩ E0 rfl).trans ?_
  exact congrArg (Cert.Spec.lin _ _ _ _) (Fin.ext E1.symm)

/-- Point `t` writes back tile `t` of the specification's difference. -/
theorem flushed5_eq (c : Dev nD) (t : Fin cfg0.N) :
    (dats m 0 c).flushed 5 t = ((cfg0.win 5).blk t).view.read (Elt Ideal)
      (Cert.Spec.diffG (m ((c : Thread nD τ).loc main_arg0)) (m ((c : Thread nD τ).loc main_arg1)) (m ((c : Thread nD τ).loc main_arg2)) (m ((c : Thread nD τ).loc main_arg3))) := by
  rw [Cert.KernelIdeal.Value.flushed5_A, out5_eq]
  obtain ⟨-, -, -, -, -, -, -, -, -, -, e50, e51⟩ := idx_facts t
  have ht : t.val < 64 := Nat.lt_of_lt_of_eq t.isLt N_0
  funext y
  have hy0 : (y 0).val < 32 := (y 0).isLt
  have hy1 : (y 1).val < 300 := (y 1).isLt
  have E0 : (((cfg0.win 5).blk t).view.emb y 0).val = t.val * 32 + (y 0).val := by
    show win0_5.index t (0 : Fin 2) * 32 + 1 * (y 0).val = _; omega
  have E1 : (((cfg0.win 5).blk t).view.emb y 1).val = (y 1).val := by
    show win0_5.index t (1 : Fin 2) * 300 + 1 * (y 1).val = _; omega
  show k0_pay4 (iblk m c 0 t) (iblk m c 2 t) (iblk m c 3 t) (iblk m c 1 t) y
    = Cert.Spec.diffG (m ((c : Thread nD τ).loc main_arg0)) (m ((c : Thread nD τ).loc main_arg1)) (m ((c : Thread nD τ).loc main_arg2)) (m ((c : Thread nD τ).loc main_arg3)) (((cfg0.win 5).blk t).view.emb y)
  obtain ⟨p, q, rfl⟩ : ∃ (p : Fin 32) (q : Fin 300), y = ix2 p q := ⟨y 0, y 1, eq_ix2 y⟩
  refine (pay4_apply (iblk m c 0 t) (iblk m c 2 t) (iblk m c 3 t) (iblk m c 1 t) p q ⟨0 + q.val, by omega⟩ rfl).trans ?_
  unfold Cert.Spec.diffG
  refine congrArg₂ (· - ·) (tile_labels m c t (ix2 p q) _ E0 E1) ?_
  refine (tile_mean m c t p q
    ⟨(((cfg0.win 5).blk t).view.emb (ix2 p q) 0).val, (((cfg0.win 5).blk t).view.emb (ix2 p q) 0).isLt⟩ ⟨0 + q.val, by omega⟩ E0 rfl).trans ?_
  exact congrArg (Cert.Spec.lin _ _ _ _) (Fin.ext E1.symm)

/-! ## The cover and the arrays after the run -/

theorem mem_blk4 (t : Fin cfg0.N) (i : S2048x300x300.Idx) :
    i ∈ ((cfg0.win 4).blk t).view.set ↔ ∀ a : Fin 3, win0_4.index t a * S32x300x300.size a ≤ (i a).val
      ∧ (i a).val < win0_4.index t a * S32x300x300.size a + S32x300x300.size a := by
  show i ∈ ((View.whole main_v4_0).slice (win0_4.rect t)).set ↔ _
  rw [View.set_slice_whole, Rect.mem_set_unit]
  exact Iff.rfl

theorem mem_blk5 (t : Fin cfg0.N) (i : S2048x300.Idx) :
    i ∈ ((cfg0.win 5).blk t).view.set ↔ ∀ a : Fin 2, win0_5.index t a * S32x300.size a ≤ (i a).val
      ∧ (i a).val < win0_5.index t a * S32x300.size a + S32x300.size a := by
  show i ∈ ((View.whole main_v4_1).slice (win0_5.rect t)).set ↔ _
  rw [View.set_slice_whole, Rect.mem_set_unit]
  exact Iff.rfl

/-- The diagonal array after the run. -/
theorem final4 (c : Dev nD) : (dats m 0 c).arrAt 4 cfg0.N
    = Cert.Spec.finalG (m ((c : Thread nD τ).loc main_arg0)) (m ((c : Thread nD τ).loc main_arg4)) (m ((c : Thread nD τ).loc main_arg5)) :=
  (dats m 0 c).arrAt_eq_of_cover 4 _ (fun t _ => flushed4_eq m c t) fun i => by
    have h0 : (i 0).val < 2048 := (i 0).isLt
    have h1 : (i 1).val < 300 := (i 1).isLt
    have h2 : (i 2).val < 300 := (i 2).isLt
    obtain ⟨t, ht⟩ := idx_onto ⟨(i 0).val / 32, by omega⟩
    have ht' : t.val = (i 0).val / 32 := ht
    obtain ⟨-, -, -, -, -, -, -, e40, e41, e42, -⟩ := idx_facts t
    refine ⟨t, flush0_4 t, ?_⟩
    rw [mem_blk4]
    intro a
    match a with
    | ⟨0, _⟩ => show win0_4.index t (0 : Fin 3) * 32 ≤ (i 0).val ∧ (i 0).val < win0_4.index t (0 : Fin 3) * 32 + 32; omega
    | ⟨1, _⟩ => show win0_4.index t (1 : Fin 3) * 300 ≤ (i 1).val ∧ (i 1).val < win0_4.index t (1 : Fin 3) * 300 + 300; omega
    | ⟨2, _⟩ => show win0_4.index t (2 : Fin 3) * 300 ≤ (i 2).val ∧ (i 2).val < win0_4.index t (2 : Fin 3) * 300 + 300; omega

/-- The difference array after the run. -/
theorem final5 (c : Dev nD) : (dats m 0 c).arrAt 5 cfg0.N
    = Cert.Spec.diffG (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) fun i => by
    have h0 : (i 0).val < 2048 := (i 0).isLt
    have h1 : (i 1).val < 300 := (i 1).isLt
    obtain ⟨t, ht⟩ := idx_onto ⟨(i 0).val / 32, by omega⟩
    have ht' : t.val = (i 0).val / 32 := ht
    obtain ⟨-, -, -, -, -, -, -, -, -, -, e50, e51⟩ := idx_facts t
    refine ⟨t, flush0_5 t, ?_⟩
    rw [mem_blk5]
    intro a
    match a with
    | ⟨0, _⟩ => show win0_5.index t (0 : Fin 2) * 32 ≤ (i 0).val ∧ (i 0).val < win0_5.index t (0 : Fin 2) * 32 + 32; omega
    | ⟨1, _⟩ => show win0_5.index t (1 : Fin 2) * 300 ≤ (i 1).val ∧ (i 1).val < win0_5.index t (1 : Fin 2) * 300 + 300; omega

/-- The run, with both result arrays at the specification's functions of the arguments. -/
theorem run : θ_run defs (onTc (τ := τ) (main (F := Ideal))) ⟨m, fun _ => 0, ρ⟩ fun r => ∀ c : Dev nD,
      r.2.mem ((c : Thread nD τ).loc main_v4_0) = Cert.Spec.finalG (m ((c : Thread nD τ).loc main_arg0)) (m ((c : Thread nD τ).loc main_arg4)) (m ((c : Thread nD τ).loc main_arg5))
      ∧ r.2.mem ((c : Thread nD τ).loc main_v4_1) = Cert.Spec.diffG (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final4 m c), (h c).2.1.trans (final5 m c), (h c).2.2⟩)
    (Cert.KernelIdeal.Value.run_blocks m ρ)

end Cert.KernelIdeal.KValue

end
-- ==== Proof.RefSide.lean ====
/-
  The whole-array program computes the specification: its two results, read one operation at a time at an index,
  are `Spec.diffG` and `Spec.finalG` of its arguments. Each layer is the dot product of a batch row with a weight
  row (the transposed weights read back at the swapped index) plus the bias broadcast over the batch; the diagonal
  indicator comes from comparing the two iotas of the `[300, 300]` square.
-/
import proofs.«131339_j28604482192086_2_alg».proof.Proof.Gen.ReferenceIdeal.Read
import proofs.«131339_j28604482192086_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The mean layer plus bias, at an index. -/
theorem mean_apply (x0 : (⟨S2048x64, .f32⟩ : BufTy).Contents (Elt Ideal)) (x2 : (⟨S300x64, .f32⟩ : BufTy).Contents (Elt Ideal))
    (x3 : (⟨S300, .f32⟩ : BufTy).Contents (Elt Ideal)) (i : S2048x300.Idx) :
    val_main_v4 (F := Ideal) x0 x2 x3 i = Cert.Spec.lin x0 x2 x3 ⟨(i 0).val, (i 0).isLt⟩ ⟨(i 1).val, (i 1).isLt⟩ := by
  rw [val_main_v4_apply, val_main_v1_apply, val_main_v3_apply, val_main_v2_apply]
  simp only [val_main_v0_apply]
  have e1 : ∀ k, lidx_main_v1 i k = ix2 (⟨(i 0).val, (i 0).isLt⟩ : Fin 2048) k := fun k => funext fun a => by
    match a with | ⟨0, _⟩ => rfl | ⟨1, _⟩ => rfl
  have e2 : ∀ k, idx_main_v0 (ridx_main_v1 i k) = ix2 (⟨(i 1).val, (i 1).isLt⟩ : Fin 300) k := fun k => funext fun a => by
    match a with | ⟨0, _⟩ => rfl | ⟨1, _⟩ => rfl
  have e3 : idx_main_v2 (idx_main_v3 i) = ix1 (⟨(i 1).val, (i 1).isLt⟩ : Fin 300) := funext fun a => by
    match a with | ⟨0, _⟩ => rfl
  simp only [e1, e2, e3]
  rfl

/-- The scale layer plus bias, at an index. -/
theorem scale_apply (x0 : (⟨S2048x64, .f32⟩ : BufTy).Contents (Elt Ideal)) (x4 : (⟨S300x64, .f32⟩ : BufTy).Contents (Elt Ideal))
    (x5 : (⟨S300, .f32⟩ : BufTy).Contents (Elt Ideal)) (i : S2048x300.Idx) :
    val_main_v9 (F := Ideal) x0 x4 x5 i = Cert.Spec.lin x0 x4 x5 ⟨(i 0).val, (i 0).isLt⟩ ⟨(i 1).val, (i 1).isLt⟩ := by
  rw [val_main_v9_apply, val_main_v6_apply, val_main_v8_apply, val_main_v7_apply]
  simp only [val_main_v5_apply]
  have e1 : ∀ k, lidx_main_v6 i k = ix2 (⟨(i 0).val, (i 0).isLt⟩ : Fin 2048) k := fun k => funext fun a => by
    match a with | ⟨0, _⟩ => rfl | ⟨1, _⟩ => rfl
  have e2 : ∀ k, idx_main_v5 (ridx_main_v6 i k) = ix2 (⟨(i 1).val, (i 1).isLt⟩ : Fin 300) k := fun k => funext fun a => by
    match a with | ⟨0, _⟩ => rfl | ⟨1, _⟩ => rfl
  have e3 : idx_main_v7 (idx_main_v8 i) = ix1 (⟨(i 1).val, (i 1).isLt⟩ : Fin 300) := funext fun a => by
    match a with | ⟨0, _⟩ => rfl
  simp only [e1, e2, e3]
  rfl

/-- The first result is the specification's difference. -/
theorem diff_eq (x0 : (⟨S2048x64, .f32⟩ : BufTy).Contents (Elt Ideal)) (x1 : (⟨S2048x300, .f32⟩ : BufTy).Contents (Elt Ideal))
    (x2 : (⟨S300x64, .f32⟩ : BufTy).Contents (Elt Ideal)) (x3 : (⟨S300, .f32⟩ : BufTy).Contents (Elt Ideal)) :
    val_main_v11 (F := Ideal) x0 x1 x2 x3 = Cert.Spec.diffG x0 x1 x2 x3 := by
  funext i
  rw [val_main_v11_apply, mean_apply]
  rfl

/-- The second result is the specification's diagonal of reciprocal variances. -/
theorem final_eq (x0 : (⟨S2048x64, .f32⟩ : BufTy).Contents (Elt Ideal)) (x4 : (⟨S300x64, .f32⟩ : BufTy).Contents (Elt Ideal))
    (x5 : (⟨S300, .f32⟩ : BufTy).Contents (Elt Ideal)) :
    val_main_v24 (F := Ideal) x0 x4 x5 = Cert.Spec.finalG x0 x4 x5 := by
  funext i
  have h1 : (i 1).val < 300 := (i 1).isLt
  have h2 : (i 2).val < 300 := (i 2).isLt
  rw [val_main_v24_apply, val_main_v22_apply, val_main_v20_apply, val_main_v19_apply, val_main_v18_apply,
    val_main_cst_apply, val_main_v10_apply, scale_apply,
    val_main_v23_apply, val_main_v21_apply, val_main_v17_apply, val_main_v16_apply, val_main_v15_apply,
    val_main_v12_apply, val_main_v14_apply, val_main_c_apply, val_main_v13_apply]
  refine (congrArg (FloatOps.mulf (F := Ideal) _) (Cert.Spec.ind_unsigned (i 1).val (i 2).val (by omega) (by omega))).trans ?_
  rfl

end Cert.ReferenceIdeal.RefValue

end
-- ==== Proof.lean ====
/-
  The claim: a batch-tiled program and a whole-array program compute the same two arrays over the extended reals.

  From a batch `b : [2048, 64]`, targets `labels : [2048, 300]` and two linear layers (mean and scale) both compute
    diff (i, j)     = labels (i, j) − (Σ_k b (i, k) · w_μ (j, k) + β_μ (j))
    final (i, r, l) = (1 / s (i, r)²) · [r = l],   s (i, r) = Σ_k b (i, k) · w_σ (r, k) + β_σ (r).
  The tiled program fuses the two layers into one `[32, 64] × [64, 600]` product per batch tile (the host lays the
  transposed weights side by side and the biases end to end), takes the first 300 columns as the mean and the last
  300 as the scale, and fills each sample's `[300, 300]` diagonal matrix in row-chunks; the whole-array program does
  two `[2048, 64] × [64, 300]` products and one broadcast product with the identity. Sums over the 64 inner indices
  are the same finite sums on both sides, the division and the products are the same operations on the same
  operands, and both identity masks are the indicator of `r = l`; so no arithmetic law beyond reading both sides at
  an index is needed, and the precondition on the inputs is never opened.

  The three frames are the programs' generated runs; the idealization rewrote nothing, so `preserves` is trivial.
-/
import proofs.«131339_j28604482192086_2_alg».proof.Defs
import proofs.«131339_j28604482192086_2_alg».proof.Proof.Gen.Kernel
import proofs.«131339_j28604482192086_2_alg».proof.Proof.Gen.Kernel.Skeleton
import proofs.«131339_j28604482192086_2_alg».proof.Proof.Gen.Kernel.Launch
import proofs.«131339_j28604482192086_2_alg».proof.Proof.Gen.Kernel.Points
import proofs.«131339_j28604482192086_2_alg».proof.Proof.Gen.Kernel.Frame
import proofs.«131339_j28604482192086_2_alg».proof.Proof.Gen.KernelIdeal
import proofs.«131339_j28604482192086_2_alg».proof.Proof.Gen.KernelIdeal.Skeleton
import proofs.«131339_j28604482192086_2_alg».proof.Proof.Gen.KernelIdeal.Launch
import proofs.«131339_j28604482192086_2_alg».proof.Proof.Gen.KernelIdeal.Points
import proofs.«131339_j28604482192086_2_alg».proof.Proof.Gen.KernelIdeal.Frame
import proofs.«131339_j28604482192086_2_alg».proof.Proof.Gen.ReferenceIdeal
import proofs.«131339_j28604482192086_2_alg».proof.Proof.Gen.Pre_finite_inputs
import proofs.«131339_j28604482192086_2_alg».proof.Proof.Gen.KernelIdeal.Value
import proofs.«131339_j28604482192086_2_alg».proof.Proof.Gen.ReferenceIdeal.Run
import proofs.«131339_j28604482192086_2_alg».proof.Proof.Gen.ReferenceIdeal.Read
import proofs.«131339_j28604482192086_2_alg».proof.Proof.KValue
import proofs.«131339_j28604482192086_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's two arrays of arguments that agree. -/
theorem algebraic : Cert.algebraic_KernelIdeal_ReferenceIdeal := by
  intro m ρ m' ρ' _ hagree
  refine ⟨fun c => Cert.Spec.finalG (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.diffG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v24_eq, Cert.ReferenceIdeal.RefValue.final_eq,
      (hagree c).1, (hagree c).2.2.2.2.1, (hagree c).2.2.2.2.2]
  · rw [(h c).2.1, Cert.ReferenceIdeal.Read.val_main_v11_eq, Cert.ReferenceIdeal.RefValue.diff_eq,
      (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
